-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x2048x4096 .f32) (main_arg1 : FVec F S4096x4096 .f32) (main_arg2 : FVec F S4096 .f32) (main_arg3 : IVec S4096x4096 1) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4x2048x4096 : Shape := ⟨3, ![4, 2048, 4096]⟩
abbrev S4096x4096 : Shape := ⟨2, ![4096, 4096]⟩
abbrev S4096 : Shape := ⟨1, ![4096]⟩
abbrev S8192x4096 : Shape := ⟨2, ![8192, 4096]⟩
abbrev S2048x1024 : Shape := ⟨2, ![2048, 1024]⟩
abbrev S1024x1024 : Shape := ⟨2, ![1024, 1024]⟩
abbrev S1024 : Shape := ⟨1, ![1024]⟩
abbrev S1x1024 : Shape := ⟨2, ![1, 1024]⟩

abbrev nBuf : Space → Nat
  | .hbm => 11
  | .vmem => 9
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S4096x4096, .i1⟩
  | .hbm, ⟨4, _⟩ => ⟨S4096x4096, .f32⟩
  | .hbm, ⟨5, _⟩ => ⟨S4096x4096, .f32⟩
  | .hbm, ⟨6, _⟩ => ⟨S4096x4096, .bf16⟩
  | .hbm, ⟨7, _⟩ => ⟨S8192x4096, .f32⟩
  | .hbm, ⟨8, _⟩ => ⟨S8192x4096, .bf16⟩
  | .hbm, ⟨9, _⟩ => ⟨S8192x4096, .f32⟩
  | .hbm, ⟨10, _⟩ => ⟨S4x2048x4096, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024, .f32⟩
  | .local _ .vmem, ⟨5, _⟩ => ⟨S1024, .f32⟩
  | .local _ .vmem, ⟨6, _⟩ => ⟨S2048x1024, .f32⟩
  | .local _ .vmem, ⟨7, _⟩ => ⟨S2048x1024, .f32⟩
  | .local _ .vmem, ⟨8, _⟩ => ⟨S2048x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bitsLt_bf16_f32 : FTy.bits .bf16 < FTy.bits .f32
  shapeCasts_S4x2048x4096_S8192x4096 : S4x2048x4096.ShapeCasts S8192x4096
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S2048x1024 : S1x1024.Broadcasts S2048x1024
  shapeCasts_S8192x4096_S4x2048x4096 : S8192x4096.ShapeCasts S4x2048x4096
  dot_S2048x1024_S1024x1024_S2048x1024_1_1_0_0_n_n_wf : DotDims.WF S2048x1024 S1024x1024 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S8192x4096.size a
  hwx0_0 : ∀ i : grid0.Coords, EltTy.bits .bf16 = 32 ∨ (Rect.block (s := S8192x4096) S2048x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S4096.size a
  hwx0_2 : ∀ i : grid0.Coords, EltTy.bits .f32 = 32 ∨ (Rect.block (s := S4096) S1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S8192x4096.size a
  hwx0_3 : ∀ i : grid0.Coords, EltTy.bits .f32 = 32 ∨ (Rect.block (s := S8192x4096) S2048x1024.size (cc0_transform_3 i) (hinb0_3 i)).WholeWords (EltTy.packing .f32)

variable [Facts₀]

def dot_S2048x1024_S1024x1024_S2048x1024_1_1_0_0_n_n : DotDims S2048x1024 S1024x1024 S2048x1024 where
  lhsContracting := [1]
  rhsContracting := [1]
  lhsNonContracting := [0]
  rhsNonContracting := [0]
  lhsBatch := []
  rhsBatch := []
  wf := dot_S2048x1024_S1024x1024_S2048x1024_1_1_0_0_n_n_wf

abbrev win0_0 : Pipeline.Window sig grid0 :=
  Pipeline.Window.ofSpec (Memref.whole main_v4) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S2048x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S1x1x4096 : Shape := ⟨3, ![1, 1, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S4096x4096, .i1⟩
  | .hbm, ⟨4, _⟩ => ⟨S4096x4096, .f32⟩
  | .hbm, ⟨5, _⟩ => ⟨S4096x4096, .f32⟩
  | .hbm, ⟨6, _⟩ => ⟨S4x2048x4096, .f32⟩
  | .hbm, ⟨7, _⟩ => ⟨S1x1x4096, .f32⟩
  | .hbm, ⟨8, _⟩ => ⟨S4x2048x4096, .f32⟩
  | .hbm, ⟨9, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.LibSumBlocks.lean ====
/-
  Regrouping a finite sum into consecutive blocks.

  A sum over the N = a * b indices 0, …, N - 1 is the sum, over the a blocks, of the sum over the b offsets inside a
  block: index i * b + j is offset j of block i.  Only commutativity and associativity of the addition are used, so the
  statement holds in any additive commutative monoid (the extended reals included).
-/
import Mathlib.Algebra.BigOperators.Fin
import Mathlib.Logic.Equiv.Fin.Basic

open scoped BigOperators

namespace Cert.SumBlocks

/-- Index `i * b + j` of block `i`, offset `j`, is below `a * b`. -/
theorem block_index_lt {a b : ℕ} (i : Fin a) (j : Fin b) : i.val * b + j.val < a * b := by
  have hi : i.val + 1 ≤ a := i.isLt
  have hj := j.isLt
  have h1 : (i.val + 1) * b ≤ a * b := Nat.mul_le_mul_right b hi
  rw [Nat.succ_mul] at h1
  omega

/-- A sum over `Fin N`, `N = a * b`, regrouped as `a` consecutive blocks of `b` terms. -/
theorem sum_blocks {M : Type*} [AddCommMonoid M] (a b N : ℕ) (hN : N = a * b) (f : Fin N → M) :
    ∑ n : Fin N, f n = ∑ i : Fin a, ∑ j : Fin b, f ⟨i.val * b + j.val, hN ▸ block_index_lt i j⟩ := by
  subst hN
  rw [← Fintype.sum_prod_type', ← (finProdFinEquiv (m := a) (n := b)).sum_comp]
  refine Finset.sum_congr rfl fun p _ => congrArg f (Fin.ext ?_)
  show p.2.val + b * p.1.val = p.1.val * b + p.2.val
  rw [Nat.mul_comm, Nat.add_comm]

end Cert.SumBlocks
-- ==== Proof.Spec.lean ====
/-
  The function both programs compute, and the one law that joins their two arrangements of it.

  A masked linear layer: for a batch of rows x (b, s, ·), weights w (o, ·), a 0/1 mask of the weights' shape and a
  bias, the entry (b, s, o) of the result is  Σ_k x (b, s, k) · (w (o, k) · mask (o, k)) + bias o,  on the extended
  reals.  One program takes the sum over k at once.  The other lays the rows of x out as an [8192, 4096] array,
  cuts k into four stretches of 1024 positions and adds the stretches' shares one after another onto a zero
  start; since addition of extended reals is commutative and associative, and 0 + y = y, the four shares add up
  to the whole sum.  No finiteness is used.
-/
import Idealize.ShloMosaic.PureOps.Ideal
import Idealize.ShloMosaic.Lib.ValueIdx
import proofs.«166505_j27479200760108_2_alg».proof.Proof.LibSumBlocks

noncomputable section

open scoped BigOperators

namespace Cert.MaskedLinear

open Idealize.ShloMosaic Idealize.ShloMosaic.ValueIdx

/-- The batch of rows, [4, 2048, 4096]. -/
abbrev SBatch : Shape := ⟨3, ![4, 2048, 4096]⟩
/-- The same rows laid out one under another, [8192, 4096]. -/
abbrev SRows : Shape := ⟨2, ![8192, 4096]⟩
/-- The weights (and the mask), [4096, 4096]: one row per output feature. -/
abbrev SWeights : Shape := ⟨2, ![4096, 4096]⟩
/-- The bias, [4096]. -/
abbrev SBias : Shape := ⟨1, ![4096]⟩

/-- The masked weights: each weight times the number its mask bit denotes (0 or 1). -/
def maskedWeights (w : SWeights.Idx → EReal) (mask : SWeights.Idx → BitVec 1) : SWeights.Idx → EReal :=
  fun j => w j * FloatOps.uitofp (F := Ideal) .f32 (mask j)

/-- THE LAYER: entry (b, s, o) is the dot product of row (b, s) of `x` with row `o` of the masked weights, plus
    `bias o`. -/
def layer (x : SBatch.Idx → EReal) (w : SWeights.Idx → EReal) (bias : SBias.Idx → EReal)
    (mask : SWeights.Idx → BitVec 1) : SBatch.Idx → EReal :=
  fun i => (∑ k : Fin 4096, x (ix3 (i 0) (i 1) k) * maskedWeights w mask (ix2 (i 2) k)) + bias (ix1 (i 2))

/-- The batch's rows laid out flat: row `r` is row (r / 2048, r mod 2048) of the batch. -/
def flatRows (x : SBatch.Idx → EReal) : SRows.Idx → EReal :=
  fun j => x (ix3 (⟨(j 0).val / 2048, by have := idx2_lt0 j; omega⟩ : Fin 4)
    (⟨(j 0).val % 2048, Nat.mod_lt _ (by norm_num)⟩ : Fin 2048) (j 1))

/-- The same on rows laid out flat: entry (r, o) is the dot product of row `r` of `X` with row `o` of `W`, plus
    `bias o`. -/
def rowsLayer (X : SRows.Idx → EReal) (W : SWeights.Idx → EReal) (bias : SBias.Idx → EReal) : SRows.Idx → EReal :=
  fun j => (∑ k : Fin 4096, X (ix2 (j 0) k) * W (ix2 (j 1) k)) + bias (ix1 (j 1))

/-- Row `b · 2048 + s` of the flat rows is row (b, s) of the batch. -/
theorem flatRows_apply (x : SBatch.Idx → EReal) (r : Fin 8192) (k : Fin 4096) (b : Fin 4) (s : Fin 2048)
    (hr : r.val = b.val * 2048 + s.val) : flatRows x (ix2 r k) = x (ix3 b s k) := by
  have hs := s.isLt
  show x (ix3 (⟨r.val / 2048, _⟩ : Fin 4) (⟨r.val % 2048, _⟩ : Fin 2048) k) = x (ix3 b s k)
  congr 1
  funext a
  match a with
  | ⟨0, _⟩ => exact Fin.ext (by show r.val / 2048 = b.val; omega)
  | ⟨1, _⟩ => exact Fin.ext (by show r.val % 2048 = s.val; omega)
  | ⟨2, _⟩ => rfl

/-- The layer's entry (b, s, o) is the flat form's entry (b · 2048 + s, o) over the flat rows and the masked weights. -/
theorem layer_eq_rowsLayer (x : SBatch.Idx → EReal) (w : SWeights.Idx → EReal) (bias : SBias.Idx → EReal)
    (mask : SWeights.Idx → BitVec 1) (b : Fin 4) (s : Fin 2048) (o : Fin 4096) (r : Fin 8192)
    (hr : r.val = b.val * 2048 + s.val) :
    layer x w bias mask (ix3 b s o) = rowsLayer (flatRows x) (maskedWeights w mask) bias (ix2 r o) := by
  show (∑ k : Fin 4096, x (ix3 b s k) * maskedWeights w mask (ix2 o k)) + bias (ix1 o)
    = (∑ k : Fin 4096, flatRows x (ix2 r k) * maskedWeights w mask (ix2 o k)) + bias (ix1 o)
  refine congrArg (· + bias (ix1 o)) (Finset.sum_congr rfl fun k _ => ?_)
  exact congrArg (· * maskedWeights w mask (ix2 o k)) (flatRows_apply x r k b s hr).symm

variable (X : SRows.Idx → EReal) (W : SWeights.Idx → EReal) (r : Fin 8192) (o : Fin 4096)

/-- The product at position `k` of row `r` of `X` and row `o` of `W` (the position read modulo the row length, so
    that the term is defined for every natural number). -/
def term (k : ℕ) : EReal :=
  X (ix2 r ⟨k % 4096, Nat.mod_lt _ (by norm_num)⟩) * W (ix2 o ⟨k % 4096, Nat.mod_lt _ (by norm_num)⟩)

/-- The share of stretch `kk`: positions `kk · 1024`, …, `kk · 1024 + 1023`. -/
def stretch (kk : ℕ) : EReal := ∑ d : Fin 1024, term X W r o (kk * 1024 + d.val)

/-- The first `s` stretches, added up. -/
def firstStretches (s : ℕ) : EReal := ∑ kk ∈ Finset.range s, stretch X W r o kk

theorem firstStretches_one : firstStretches X W r o 1 = stretch X W r o 0 := Finset.sum_range_one _

theorem firstStretches_succ (s : ℕ) :
    firstStretches X W r o (s + 1) = firstStretches X W r o s + stretch X W r o s := Finset.sum_range_succ _ _

/-- Four stretches of 1024 positions are the whole row: their shares add up to the dot product. -/
theorem firstStretches_four :
    firstStretches X W r o 4 = ∑ k : Fin 4096, X (ix2 r k) * W (ix2 o k) := by
  have h1 : ∀ k : Fin 4096, X (ix2 r k) * W (ix2 o k) = term X W r o k.val := fun k => by
    unfold term
    have e : (⟨k.val % 4096, Nat.mod_lt _ (by norm_num)⟩ : Fin 4096) = k := Fin.ext (Nat.mod_eq_of_lt k.isLt)
    rw [e]
  rw [Finset.sum_congr rfl (fun k _ => h1 k),
    Cert.SumBlocks.sum_blocks 4 1024 4096 (by norm_num) (fun k => term X W r o k.val)]
  unfold firstStretches stretch
  exact (Fin.sum_univ_eq_sum_range (fun kk => ∑ d : Fin 1024, term X W r o (kk * 1024 + d.val)) 4).symm

end Cert.MaskedLinear

end
-- ==== Proof.Reference.lean ====
/-
  The reference computes the layer.

  Read one operation at a time, at entry (b, s, o): the contraction is the sum over k of x (b, s, k) times the masked
  weight (o, k) — the weight times the number the mask bit denotes —, and the bias, repeated along the two leading
  axes, is read at o.  That is the layer's defining formula term for term; only the index maps have to be named by
  their coordinates.
-/
import proofs.«166505_j27479200760108_2_alg».proof.Proof.Gen.ReferenceIdeal.Read
import proofs.«166505_j27479200760108_2_alg».proof.Proof.Spec

noncomputable section

open scoped BigOperators

namespace Cert.ReferenceIdeal.RefValue

open Cert.ReferenceIdeal Idealize.ShloMosaic Idealize.ShloMosaic.ValueIdx

/-- The reference's result, as a function of its four arguments, is the layer. -/
theorem reference_is_layer (x : S4x2048x4096.Idx → EReal) (w : S4096x4096.Idx → EReal) (bias : S4096.Idx → EReal)
    (mask : S4096x4096.Idx → BitVec 1) :
    Read.val_main_v5 (F := Ideal) x w bias mask = Cert.MaskedLinear.layer x w bias mask := by
  funext i
  have el : ∀ k, Read.lidx_main_v2 i k = ix3 (i 0) (i 1) k := fun k => funext fun a => Fin.ext (by
    match a with
    | ⟨0, _⟩ => rfl
    | ⟨1, _⟩ => rfl
    | ⟨2, _⟩ => rfl)
  have er : ∀ k, Read.ridx_main_v2 i k = ix2 (i 2) k := fun k => funext fun a => Fin.ext (by
    match a with
    | ⟨0, _⟩ => rfl
    | ⟨1, _⟩ => rfl)
  have eb : Read.idx_main_v3 (Read.idx_main_v4 i) = ix1 (i 2) := funext fun a => Fin.ext (by
    match a with
    | ⟨0, _⟩ => rfl)
  rw [Read.val_main_v5_apply, Read.val_main_v2_apply, Read.val_main_v4_apply, Read.val_main_v3_apply]
  simp only [Read.val_main_v1_apply, Read.val_main_v0_apply, el, er, eb]
  rfl

end Cert.ReferenceIdeal.RefValue

end
-- ==== Proof.Found.lean ====
/-
  What one step of the grid leaves behind, as values.

  The grid walks the 4 × 4 blocks of the [8192, 4096] result; for each block it takes the four stretches of the
  contracted axis in turn and keeps an accumulator of the block's shape between them.  There are three kinds of
  step.  At a block's first stretch the accumulator is set to zero and then receives the stretch's share; at a middle
  stretch it receives the share on top of what it held; at the last stretch it receives the share likewise and the
  block written out is the accumulator plus the bias.  Each statement below says this for one kind of step, for any
  float values: the last store through the whole block decides what the buffer holds, and a load through the whole
  block reads what was last stored.
-/
import proofs.«166505_j27479200760108_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Found

open Cert.KernelIdeal Cert.KernelIdeal.Gen

variable {F : FTy → Type} [FloatOps F]

theorem hz : (![0, 0] : Fin 2 → Nat) = fun _ => 0 := funext fun a => by fin_cases a <;> rfl
theorem hz1 : (![0] : Fin 1 → Nat) = fun _ => 0 := funext fun a => by fin_cases a <;> rfl

/-- Away from the first and last stretch the accumulator ends at the stretch's share added onto what it held. -/
theorem scratch_B (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S2048x1024 .f32) (harg6 : arg6.IsWhole) (arg7 : Memref sig .tc .vmem S2048x1024 .f32) (harg7 : arg7.IsWhole) (hc0 : ¬cond0_0 i) (hc1 : ¬cond0_1 i)
    (x0 : Vec F S2048x1024 .bf16) (x1 : Vec F S1024x1024 .bf16) (x2 : Vec F S1024 .f32) (xs0 : Vec F S2048x1024 .f32) :
    sout0_B_0 c i arg3 harg3 arg4 harg4 arg5 harg5 arg6 harg6 arg7 harg7 hc0 hc1 x0 x1 x2 xs0 = k0_pay2 xs0 x0 x1 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  sl_unfold_words
  rw [View.canon_unit_zero hz]
  simp only [View.readAt_eq_ld, harg7.read_unread, harg3.read_unread, harg4.read_unread, harg5.read_unread, View.ld_unit_zero (S := S2048x1024) hz, View.ld_unit_zero (S := S1024x1024) hz, View.ld_unit_zero (S := S1024) hz1]

/-- At the first stretch the accumulator is first set to zero, read back, and ends at the stretch's share added onto
    that zero. -/
theorem scratch_A (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S2048x1024 .f32) (harg6 : arg6.IsWhole) (arg7 : Memref sig .tc .vmem S2048x1024 .f32) (harg7 : arg7.IsWhole) (hc0 : cond0_0 i) (hc1 : ¬cond0_1 i)
    (x0 : Vec F S2048x1024 .bf16) (x1 : Vec F S1024x1024 .bf16) (x2 : Vec F S1024 .f32) :
    sout0_A_0 c i arg3 harg3 arg4 harg4 arg5 harg5 arg6 harg6 arg7 harg7 hc0 hc1 x0 x1 x2 = k0_pay2 (k0_pay1 (F := F)) x0 x1 := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S2048x1024) hz, View.readCov_unit_zero (S := S2048x1024) _ hz]
  simp only [View.readAt_eq_ld, harg7.read_unread, harg3.read_unread, harg4.read_unread, harg5.read_unread, View.ld_unit_zero (S := S2048x1024) hz, View.ld_unit_zero (S := S1024x1024) hz, View.ld_unit_zero (S := S1024) hz1]

/-- At the last stretch the accumulator again ends at the stretch's share added onto what it held, -/
theorem scratch_C (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S2048x1024 .f32) (harg6 : arg6.IsWhole) (arg7 : Memref sig .tc .vmem S2048x1024 .f32) (harg7 : arg7.IsWhole) (hc0 : ¬cond0_0 i) (hc1 : cond0_1 i)
    (x0 : Vec F S2048x1024 .bf16) (x1 : Vec F S1024x1024 .bf16) (x2 : Vec F S1024 .f32) (xs0 : Vec F S2048x1024 .f32) :
    sout0_C_0 c i arg3 harg3 arg4 harg4 arg5 harg5 arg6 harg6 arg7 harg7 hc0 hc1 x0 x1 x2 xs0 = k0_pay2 xs0 x0 x1 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero hz]
  simp only [View.readAt_eq_ld, harg7.read_unread, harg3.read_unread, harg4.read_unread, harg5.read_unread, View.ld_unit_zero (S := S2048x1024) hz, View.ld_unit_zero (S := S1024x1024) hz, View.ld_unit_zero (S := S1024) hz1]

/-- and the output block is that final accumulator, read back, plus the bias block repeated along the rows. -/
theorem out_C (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S2048x1024 .f32) (harg6 : arg6.IsWhole) (arg7 : Memref sig .tc .vmem S2048x1024 .f32) (harg7 : arg7.IsWhole) (hc0 : ¬cond0_0 i) (hc1 : cond0_1 i)
    (x0 : Vec F S2048x1024 .bf16) (x1 : Vec F S1024x1024 .bf16) (x2 : Vec F S1024 .f32) (xs0 : Vec F S2048x1024 .f32) :
    out0_C_3 c i arg3 harg3 arg4 harg4 arg5 harg5 arg6 harg6 arg7 harg7 hc0 hc1 x0 x1 x2 xs0 = k0_pay3 (k0_pay2 xs0 x0 x1) x2 := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero hz, View.readCov_unit_zero (S := S2048x1024) _ hz]
  simp only [View.readAt_eq_ld, harg7.read_unread, harg3.read_unread, harg4.read_unread, harg5.read_unread, View.ld_unit_zero (S := S2048x1024) hz, View.ld_unit_zero (S := S1024x1024) hz, View.ld_unit_zero (S := S1024) hz1]

end Cert.KernelIdeal.Found

end
-- ==== Proof.LibMatmulRows.lean ====
/-
  A matrix product against the rows of the right factor, read at an entry.

  For the dimension numbers of a product with the right factor transposed — an [a, n] array times an [b, n] array,
  contracting the second axis of both, no batch axis (the einsum "qd,kd->qk") — the product accumulated onto the zero
  array is, on the extended reals, at (p, q) the sum over k of left (p, k) · right (q, k): the dot product of row p of
  the left factor with row q of the right one.  The extents are variables, so the reading does not change with a
  kernel's tiling.
-/
import Idealize.ShloMosaic.Lib.ValueIdx
import Idealize.ShloMosaic.PureOps.Ideal.Laws

noncomputable section

open scoped BigOperators

namespace Cert.MatmulRows

open Idealize.ShloMosaic Idealize.ShloMosaic.ValueIdx

/-- The dimension numbers of an [a, n] × [b, n]ᵀ product, over any witness of their well-formedness. -/
abbrev dims {a n b : ℕ}
    (wf : DotDims.WF ⟨2, ![a, n]⟩ ⟨2, ![b, n]⟩ ⟨2, ![a, b]⟩ [1] [1] [0] [0] [] []) :
    DotDims ⟨2, ![a, n]⟩ ⟨2, ![b, n]⟩ ⟨2, ![a, b]⟩ :=
  ⟨[1], [1], [0], [0], [], [], wf⟩

/-- A product against the right factor's rows, onto the zero array: at (p, q) the sum over k of
    left (p, k) · right (q, k). -/
theorem zero_acc_apply {a n b : ℕ} {φ₁ φ₂ : FTy}
    (wf : DotDims.WF ⟨2, ![a, n]⟩ ⟨2, ![b, n]⟩ ⟨2, ![a, b]⟩ [1] [1] [0] [0] [] [])
    (prec : Option ContractPrecision) (L : FVec Ideal ⟨2, ![a, n]⟩ φ₁) (R : FVec Ideal ⟨2, ![b, n]⟩ φ₂)
    (p : Fin a) (q : Fin b) :
    FloatOps.matmul (dims wf) prec L R (constant ⟨2, ![a, b]⟩ .f32 0x00000000#32) (ix2 p q)
      = ∑ k : Fin n, L (ix2 p k) * R (ix2 q k) := by
  rw [Ideal.matmul_constant_zero_apply, ← Equiv.sum_comp (contrEquiv1 (dims wf) n rfl rfl).symm]
  refine Finset.sum_congr rfl fun k _ => ?_
  have hk := contrEquiv1_symm_val (dims wf) n rfl rfl k
  have el : (dims wf).lhsIdx (ix2 p q) ((contrEquiv1 (dims wf) n rfl rfl).symm k) = ix2 p k :=
    funext fun ax => Fin.ext (by
      match ax with
      | ⟨0, _⟩ => rfl
      | ⟨1, _⟩ => exact ((dims wf).lhsIdx_val_of_single rfl _ _).trans hk)
  have er : (dims wf).rhsIdx (ix2 p q) ((contrEquiv1 (dims wf) n rfl rfl).symm k) = ix2 q k :=
    funext fun ax => Fin.ext (by
      match ax with
      | ⟨0, _⟩ => rfl
      | ⟨1, _⟩ => exact ((dims wf).rhsIdx_val_of_single rfl _ _).trans hk)
  rw [el, er]

end Cert.MatmulRows

end
-- ==== Proof.LibRowOps.lean ====
/-
  Three readings at an entry (p, q) of a two-axis array, for the shapes a row-wise reduction meets.

  A vector of one value per row, kept as a column [a, 1] and repeated along the columns, reads at (p, q) its value
  for row p.  A vector of one value per column, kept as a row [1, b] and repeated along the rows, reads at (p, q) its
  value for column q.  And the sum over the second axis of an [a, n] array, read on the extended reals, is at row p
  the sum over d of the entries (p, d).
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.RowOps

open Idealize.ShloMosaic Idealize.ShloMosaic.ValueIdx

variable {α : Type}

/-- One value per row, kept as a column and repeated along `b` columns: at (p, q) it is the value of row `p`. -/
theorem column_repeated_apply {a b : ℕ} (v : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (q : Fin b) :
    broadcastTo ⟨2, ![a, b]⟩ (shapeCast ⟨2, ![a, 1]⟩ v hc) hb (ix2 p q) = v (ix1 p) := by
  refine (broadcastTo_apply _ hb (ix2 p q) (ix2 p (0 : Fin 1)) fun ax => ?_).trans ?_
  · match ax with
    | ⟨0, _⟩ =>
      show p.val = if a = 1 then 0 else p.val
      split
      · have := p.isLt; omega
      · rfl
    | ⟨1, _⟩ =>
      show 0 = if (1 : ℕ) = 1 then 0 else q.val
      rw [if_pos rfl]
  · exact shapeCast_apply v hc _ _ (by
      rw [Shape.rowMajor_val_one, Shape.rowMajor_val_two]
      show p.val = p.val * 1 + 0
      omega)

/-- One value per column, kept as a row and repeated along `a` rows: at (p, q) it is the value of column `q`. -/
theorem row_repeated_apply {a b : ℕ} (v : (⟨1, ![b]⟩ : Shape).Idx → α)
    (hc : (⟨1, ![b]⟩ : Shape).ShapeCasts ⟨2, ![1, b]⟩) (hb : (⟨2, ![1, b]⟩ : Shape).Broadcasts ⟨2, ![a, b]⟩)
    (p : Fin a) (q : Fin b) :
    broadcastTo ⟨2, ![a, b]⟩ (shapeCast ⟨2, ![1, b]⟩ v hc) hb (ix2 p q) = v (ix1 q) :=
  (broadcastTo_1b_ab_apply _ hb p q).trans (shapeCast_a_1a_apply v hc 0 q)

/-- The sum over the second axis of an [a, n] array of extended reals: at row `p` the sum over `d` of the entries (p, d). -/
theorem sum_over_columns_apply {a n : ℕ} (src : FVec Ideal ⟨2, ![a, n]⟩ .f32)
    (h : (⟨2, ![a, n]⟩ : Shape).Reduces [1] ⟨1, ![a]⟩) (hφ : FKind.Formats .f32)
    (hacc : (0x00000000#32 : BitVec 32) = 0x00000000#32) (p : Fin a) :
    multiReduction .add [1] ⟨1, ![a]⟩ src 0x00000000#32 h hφ hacc (ix1 p) = ∑ d : Fin n, src (ix2 p d) :=
  (Ideal.multiReduction_add_single src 0x00000000#32 h hφ hacc (ix1 p)).trans
    (Finset.sum_congr rfl fun d _ => congrArg src (funext fun ax => Fin.ext (by
      match ax with
      | ⟨0, _⟩ => rfl
      | ⟨1, _⟩ => rfl)))

end Cert.RowOps

end
-- ==== Proof.Payloads.lean ====
/-
  The three values a step of the grid stores, read at an entry on the extended reals.

  The accumulator's reset is zero everywhere.  One step of the accumulation adds, at (p, q), the dot product of row p
  of the rows' block with row q of the weights' block (a matrix product against the right factor's rows, started from
  zero).  The output block adds the bias of column q, the bias block being kept as one row and repeated along the
  rows.  A cast of a block to its own shape changes nothing.
-/
import proofs.«166505_j27479200760108_2_alg».proof.Proof.Gen.KernelIdeal.Skeleton
import proofs.«166505_j27479200760108_2_alg».proof.Proof.LibMatmulRows
import proofs.«166505_j27479200760108_2_alg».proof.Proof.LibRowOps
import Idealize.ShloMosaic.Lib.Pipeline.Value
import Idealize.ShloMosaic.Lib.ValueIdx
import Idealize.ShloMosaic.PureOps.Ideal.Laws

noncomputable section

open scoped BigOperators

namespace Cert.KernelIdeal.Payloads

open Cert.KernelIdeal Cert.KernelIdeal.Gen Idealize.ShloMosaic Idealize.ShloMosaic.ValueIdx

/-- The accumulator's reset writes zero everywhere. -/
theorem zero_block_apply (p : Fin 2048) (q : Fin 1024) : k0_pay1 (F := Ideal) (ix2 p q) = 0 := by
  unfold k0_pay1
  exact (congrFun (shapeCast_self _ _) (ix2 p q)).trans Ideal.ofBits_zero_f32

/-- One step of the accumulation: at (p, q) what the accumulator held plus the dot product of row `p` of the block of
    rows with row `q` of the block of weights. -/
theorem accumulate_apply (acc : Vec Ideal S2048x1024 .f32) (xb : Vec Ideal S2048x1024 .bf16) (wb : Vec Ideal S1024x1024 .bf16)
    (p : Fin 2048) (q : Fin 1024) :
    k0_pay2 (F := Ideal) acc xb wb (ix2 p q) = acc (ix2 p q) + ∑ d : Fin 1024, xb (ix2 p d) * wb (ix2 q d) := by
  unfold k0_pay2
  refine (congrFun (shapeCast_self _ _) (ix2 p q)).trans ?_
  refine congrArg (acc (ix2 p q) + ·) ?_
  rw [shapeCast_self, shapeCast_self]
  exact Cert.MatmulRows.zero_acc_apply dot_S2048x1024_S1024x1024_S2048x1024_1_1_0_0_n_n_wf none xb wb p q

/-- The output block: at (p, q) the accumulator plus the bias of column `q`. -/
theorem add_bias_apply (acc : Vec Ideal S2048x1024 .f32) (bb : Vec Ideal S1024 .f32) (p : Fin 2048) (q : Fin 1024) :
    k0_pay3 (F := Ideal) acc bb (ix2 p q) = acc (ix2 p q) + bb (ix1 q) := by
  unfold k0_pay3
  exact congrArg (acc (ix2 p q) + ·) (Cert.RowOps.row_repeated_apply bb shapeCasts_S1024_S1x1024 broadcasts_S1x1024_S2048x1024 p q)

end Cert.KernelIdeal.Payloads

end
-- ==== Proof.Blocks.lean ====
/-
  Where the grid's blocks sit, and what the arrays it reads hold.

  The 64 steps of the grid are the triples (block row, block column, stretch), the stretch running fastest.  At a step
  the rows' block is rows 2048 · (block row) … of the flat rows and columns 1024 · (stretch) …; the weights' block is
  rows 1024 · (block column) … of the weights and the same columns; the bias block is entries 1024 · (block column) ….
  The flat rows are the batch's rows laid out one under another, and the weights are the masked weights: both are
  prepared before the grid starts, and on the extended reals the change of float format made there is the identity.
-/
import proofs.«166505_j27479200760108_2_alg».proof.Proof.Gen.KernelIdeal.Frame
import proofs.«166505_j27479200760108_2_alg».proof.Proof.Spec
import Idealize.ShloMosaic.Lib.Pipeline.Value
import Idealize.ShloMosaic.Lib.ValueIdx
import Idealize.ShloMosaic.Lib.StableHlo.Run
import Idealize.ShloMosaic.PureOps.Ideal.Laws

set_option maxRecDepth 16384

noncomputable section

open scoped BigOperators

namespace Cert.KernelIdeal.Blocks

open Cert.KernelIdeal Cert.KernelIdeal.Gen Idealize.ShloMosaic Idealize.ShloMosaic.TcCoe Idealize.SL.Sem
open Idealize.ShloMosaic.ValueIdx

/-- Where the blocks sit. Step `t` of the grid is the triple (t / 16, t / 4 mod 4, t mod 4): block row, block column
    and stretch. The rows' block is (block row, stretch), the weights' block (block column, stretch), the bias block
    the block column, and the result's block (block row, block column). -/
theorem block_positions : ∀ t : Fin cfg0.N,
    win0_0.index t (0 : Fin 2) = t.val / 16 ∧ win0_0.index t (1 : Fin 2) = t.val % 4
    ∧ win0_1.index t (0 : Fin 2) = t.val / 4 % 4 ∧ win0_1.index t (1 : Fin 2) = t.val % 4
    ∧ win0_2.index t (0 : Fin 1) = t.val / 4 % 4
    ∧ win0_3.index t (0 : Fin 2) = t.val / 16 ∧ win0_3.index t (1 : Fin 2) = t.val / 4 % 4 :=
  (by decide +kernel : ∀ t : Fin grid0.N, _)

section AnyValues

variable {F : FTy → Type} [FloatOps F]
variable (m : (ℓ : Loc nD τ sig) → Buf (Elt F) ℓ)

/-- The block of rows at step `t`, at (p, d): the flat rows' entry (block row · 2048 + p, stretch · 1024 + d). -/
theorem rows_block_apply (c : Dev nD) (t : Fin cfg0.N) (p : Fin 2048) (d : Fin 1024) (r : Fin 8192) (k : Fin 4096)
    (hr : r.val = t.val / 16 * 2048 + p.val) (hk : k.val = t.val % 4 * 1024 + d.val) :
    (iblk m c 0 t : Vec F S2048x1024 .bf16) (ix2 p d) = V m c main_v4 (ix2 r k) := by
  obtain ⟨e0, e1, -⟩ := block_positions t
  unfold iblk
  rw [View.read_apply]
  show V m c main_v4 _ = V m c main_v4 _
  congr 1
  funext a
  apply Fin.ext
  match a with
  | ⟨0, _⟩ => show win0_0.index t (0 : Fin 2) * 2048 + 1 * p.val = r.val; omega
  | ⟨1, _⟩ => show win0_0.index t (1 : Fin 2) * 1024 + 1 * d.val = k.val; omega

/-- The block of weights at step `t`, at (q, d): the weights' entry (block column · 1024 + q, stretch · 1024 + d). -/
theorem weights_block_apply (c : Dev nD) (t : Fin cfg0.N) (q : Fin 1024) (d : Fin 1024) (o : Fin 4096) (k : Fin 4096)
    (ho : o.val = t.val / 4 % 4 * 1024 + q.val) (hk : k.val = t.val % 4 * 1024 + d.val) :
    (iblk m c 1 t : Vec F S1024x1024 .bf16) (ix2 q d) = V m c main_v2 (ix2 o k) := by
  obtain ⟨-, -, e2, e3, -⟩ := block_positions t
  unfold iblk
  rw [View.read_apply]
  show V m c main_v2 _ = V m c main_v2 _
  congr 1
  funext a
  apply Fin.ext
  match a with
  | ⟨0, _⟩ => show win0_1.index t (0 : Fin 2) * 1024 + 1 * q.val = o.val; omega
  | ⟨1, _⟩ => show win0_1.index t (1 : Fin 2) * 1024 + 1 * d.val = k.val; omega

/-- The bias block at step `t`, at q: the bias of column (block column · 1024 + q). -/
theorem bias_block_apply (c : Dev nD) (t : Fin cfg0.N) (q : Fin 1024) (o : Fin 4096)
    (ho : o.val = t.val / 4 % 4 * 1024 + q.val) :
    (iblk m c 2 t : Vec F S1024 .f32) (ix1 q) = V m c main_arg2 (ix1 o) := by
  obtain ⟨-, -, -, -, e4, -⟩ := block_positions t
  unfold iblk
  rw [View.read_apply]
  show V m c main_arg2 _ = V m c main_arg2 _
  congr 1
  funext a
  apply Fin.ext
  match a with
  | ⟨0, _⟩ => show win0_2.index t (0 : Fin 1) * 1024 + 1 * q.val = o.val; omega

end AnyValues

section Exact

open Cert.MaskedLinear

variable (m : (ℓ : Loc nD τ sig) → Buf (Elt Ideal) ℓ)

/-- The rows the grid reads are the batch's rows laid out flat: the batch with its two leading axes merged, the change
    of float format being the identity on extended reals. -/
theorem rows_array (c : Dev nD) :
    @Eq (S8192x4096.Idx → EReal) (V m c main_v4) (flatRows (m ((c : Thread nD τ).loc main_arg0))) := by
  have e : @Eq (S8192x4096.Idx → EReal) (V m c main_v4)
      (truncf (F := Ideal) .bf16 (shapeCast S8192x4096 (m ((c : Thread nD τ).loc main_arg0) : S4x2048x4096.Idx → EReal) shapeCasts_S4x2048x4096_S8192x4096) bitsLt_bf16_f32) := by
    show StableHlo.after hostOps0 (fun b => m (c, b)) (Proc.devRef .tc main_v4) = _
    after_results
    rfl
  refine e.trans (funext fun j => ?_)
  show shapeCast S8192x4096 (m ((c : Thread nD τ).loc main_arg0) : S4x2048x4096.Idx → EReal) shapeCasts_S4x2048x4096_S8192x4096 j = _
  refine shapeCast_apply _ _ _ _ ?_
  show (S4x2048x4096.rowMajor _).val = (S8192x4096.rowMajor j).val
  rw [Shape.rowMajor_val_three, Shape.rowMajor_val_two]
  show ((j 0).val / 2048 * 2048 + (j 0).val % 2048) * 4096 + (j 1).val = (j 0).val * 4096 + (j 1).val
  omega

/-- The weights the grid reads are the masked weights. -/
theorem weights_array (c : Dev nD) :
    @Eq (S4096x4096.Idx → EReal) (V m c main_v2)
      (maskedWeights (m ((c : Thread nD τ).loc main_arg1)) (m ((c : Thread nD τ).loc main_arg3))) := by
  have e : @Eq (S4096x4096.Idx → EReal) (V m c main_v2)
      (truncf (F := Ideal) .bf16 (mulf (F := Ideal) (m ((c : Thread nD τ).loc main_arg1) : S4096x4096.Idx → EReal) (uitofp (F := Ideal) .f32 (m ((c : Thread nD τ).loc main_arg3) : S4096x4096.Idx → BitVec 1))) bitsLt_bf16_f32) := by
    show StableHlo.after hostOps0 (fun b => m (c, b)) (Proc.devRef .tc main_v2) = _
    after_results
  exact e

end Exact

end Cert.KernelIdeal.Blocks

end
-- ==== Proof.Accum.lean ====
/-
  The accumulator, step by step.

  Fix a block of the result.  Its four steps are consecutive, and after the step for stretch j the accumulator holds,
  at (p, q), the sum of the shares of stretches 0, …, j of the dot product of the block's row p of the flat rows with
  its row q of the weights: the first step starts from zero (0 + y = y), each later step adds its share to what the
  step before left.  By induction on the step this holds at every step; after the fourth the sum is the whole dot
  product, and the block written out adds the bias.
-/
import proofs.«166505_j27479200760108_2_alg».proof.Proof.Found
import proofs.«166505_j27479200760108_2_alg».proof.Proof.Payloads
import proofs.«166505_j27479200760108_2_alg».proof.Proof.Blocks
import proofs.«166505_j27479200760108_2_alg».proof.Proof.Spec

set_option maxRecDepth 16384

noncomputable section

open scoped BigOperators

namespace Cert.KernelIdeal.Accum

open Cert.KernelIdeal Cert.KernelIdeal.Gen Idealize.ShloMosaic Idealize.ShloMosaic.TcCoe Idealize.SL.Sem
open Idealize.ShloMosaic.ValueIdx Cert.MaskedLinear

theorem grid_points : cfg0.N = 64 := N_0

section AnyValues

variable {F : FTy → Type} [FloatOps F]
variable (m : (ℓ : Loc nD τ sig) → Buf (Elt F) ℓ)

/-- After a block's first step the accumulator is the step's share added onto the zero block. -/
theorem scratch_at_first (c : Dev nD) (t : Fin cfg0.N) (h0 : t.val % 4 = 0) (h1 : ¬t.val % 4 = 3) :
    (outsAt0 m c t.val t.isLt).2 = k0_pay2 (k0_pay1 (F := F)) (iblk m c 0 t) (iblk m c 1 t) := by
  rw [outsAt0_A m c t h0 h1]
  dsimp only
  exact Found.scratch_A (F := F) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)

/-- After a middle step it is the step's share added onto what the step before left. -/
theorem scratch_at_middle (c : Dev nD) (t : Fin cfg0.N) (h0 : ¬t.val % 4 = 0) (h1 : ¬t.val % 4 = 3) :
    (outsAt0 m c t.val t.isLt).2 = k0_pay2 (outsAt0 m c (t.val - 1) (Nat.lt_of_le_of_lt (Nat.sub_le _ _) t.isLt)).2 (iblk m c 0 t) (iblk m c 1 t) := by
  rw [outsAt0_B m c t h0 h1]
  dsimp only
  exact Found.scratch_B (F := F) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2

/-- After the last step likewise, -/
theorem scratch_at_last (c : Dev nD) (t : Fin cfg0.N) (h0 : ¬t.val % 4 = 0) (h1 : t.val % 4 = 3) :
    (outsAt0 m c t.val t.isLt).2 = k0_pay2 (outsAt0 m c (t.val - 1) (Nat.lt_of_le_of_lt (Nat.sub_le _ _) t.isLt)).2 (iblk m c 0 t) (iblk m c 1 t) := by
  rw [outsAt0_C m c t h0 h1]
  dsimp only
  exact Found.scratch_C (F := F) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2

/-- and the block written out is that accumulator plus the bias block. -/
theorem out_at_last (c : Dev nD) (t : Fin cfg0.N) (h0 : ¬t.val % 4 = 0) (h1 : t.val % 4 = 3) :
    (outsAt0 m c t.val t.isLt).1 = k0_pay3 (k0_pay2 (outsAt0 m c (t.val - 1) (Nat.lt_of_le_of_lt (Nat.sub_le _ _) t.isLt)).2 (iblk m c 0 t) (iblk m c 1 t)) (iblk m c 2 t) := by
  rw [outsAt0_C m c t h0 h1]
  dsimp only
  exact Found.out_C (F := F) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2

end AnyValues

section Exact

variable (m : (ℓ : Loc nD τ sig) → Buf (Elt Ideal) ℓ)

/-- The flat rows' row that row `p` of step `n`'s block is. -/
def rowOf (n : ℕ) (hn : n < cfg0.N) (p : Fin 2048) : Fin 8192 :=
  ⟨n / 16 * 2048 + p.val, by have h := lt_of_lt_of_eq hn grid_points; have := p.isLt; omega⟩

/-- The weights' row (the result's column) that row `q` of step `n`'s block is. -/
def colOf (n : ℕ) (q : Fin 1024) : Fin 4096 :=
  ⟨n / 4 % 4 * 1024 + q.val, by have := q.isLt; omega⟩

/-- The arrays the grid reads, as arrays of extended reals. -/
abbrev rowsOf (c : Dev nD) : SRows.Idx → EReal := V m c main_v4
abbrev weightsOf (c : Dev nD) : SWeights.Idx → EReal := V m c main_v2
abbrev biasOf (c : Dev nD) : SBias.Idx → EReal := V m c main_arg2

/-- If a block of rows and a block of weights hold, at offset `d`, the entries at position `kk · 1024 + d` of row `r` of
    `X` and of row `o` of `W`, then the dot product of their rows `p` and `q` is stretch `kk`'s share. -/
theorem share_of_blocks (X : SRows.Idx → EReal) (W : SWeights.Idx → EReal) (r : Fin 8192) (o : Fin 4096) (kk : ℕ)
    (hkk : kk < 4) (xb : Vec Ideal S2048x1024 .bf16) (wb : Vec Ideal S1024x1024 .bf16) (p : Fin 2048) (q : Fin 1024)
    (hx : ∀ (d : Fin 1024) (k : Fin 4096), k.val = kk * 1024 + d.val → xb (ix2 p d) = X (ix2 r k))
    (hw : ∀ (d : Fin 1024) (k : Fin 4096), k.val = kk * 1024 + d.val → wb (ix2 q d) = W (ix2 o k)) :
    (∑ d : Fin 1024, xb (ix2 p d) * wb (ix2 q d)) = stretch X W r o kk := by
  unfold stretch term
  refine Finset.sum_congr rfl fun d _ => ?_
  have hd := d.isLt
  have hk : (kk * 1024 + d.val) % 4096 = kk * 1024 + d.val := Nat.mod_eq_of_lt (by omega)
  exact congrArg₂ (fun a b : EReal => a * b)
    (hx d ⟨(kk * 1024 + d.val) % 4096, Nat.mod_lt _ (by norm_num)⟩ hk)
    (hw d ⟨(kk * 1024 + d.val) % 4096, Nat.mod_lt _ (by norm_num)⟩ hk)

/-- One step: what the accumulator held, plus the step's share. -/
theorem step_apply (c : Dev nD) (n : ℕ) (hn : n < cfg0.N) (p : Fin 2048) (q : Fin 1024) (acc : Vec Ideal S2048x1024 .f32) :
    k0_pay2 (F := Ideal) acc (iblk m c 0 ⟨n, hn⟩) (iblk m c 1 ⟨n, hn⟩) (ix2 p q)
      = acc (ix2 p q) + stretch (rowsOf m c) (weightsOf m c) (rowOf n hn p) (colOf n q) (n % 4) :=
  (Payloads.accumulate_apply acc (iblk m c 0 ⟨n, hn⟩) (iblk m c 1 ⟨n, hn⟩) p q).trans
    (congrArg (fun y : EReal => acc (ix2 p q) + y)
      (share_of_blocks (rowsOf m c) (weightsOf m c) (rowOf n hn p) (colOf n q) (n % 4) (Nat.mod_lt _ (by norm_num))
        (iblk m c 0 ⟨n, hn⟩) (iblk m c 1 ⟨n, hn⟩) p q
        (fun d k hk => Blocks.rows_block_apply m c ⟨n, hn⟩ p d (rowOf n hn p) k rfl hk)
        (fun d k hk => Blocks.weights_block_apply m c ⟨n, hn⟩ q d (colOf n q) k rfl hk)))

/-- THE INVARIANT: after step `n` the accumulator holds the shares of stretches 0, …, n mod 4. -/
theorem accumulator_apply (c : Dev nD) (n : ℕ) : ∀ (hn : n < cfg0.N) (p : Fin 2048) (q : Fin 1024),
    (outsAt0 m c n hn).2 (ix2 p q)
      = firstStretches (rowsOf m c) (weightsOf m c) (rowOf n hn p) (colOf n q) (n % 4 + 1) := by
  induction n using Nat.strong_induction_on with
  | _ n ih =>
    intro hn p q
    have hN : n < 64 := lt_of_lt_of_eq hn grid_points
    by_cases h0 : n % 4 = 0
    · have h1 : ¬n % 4 = 3 := by omega
      refine (congrFun (scratch_at_first m c ⟨n, hn⟩ h0 h1) (ix2 p q)).trans ?_
      refine (step_apply m c n hn p q _).trans ?_
      rw [Payloads.zero_block_apply, zero_add, h0]
      exact (firstStretches_one _ _ _ _).symm
    · have hprev : n - 1 < cfg0.N := Nat.lt_of_le_of_lt (Nat.sub_le _ _) hn
      have ih' := ih (n - 1) (by omega) hprev p q
      have er : rowOf (n - 1) hprev p = rowOf n hn p :=
        Fin.ext (by show (n - 1) / 16 * 2048 + p.val = n / 16 * 2048 + p.val; omega)
      have eo : colOf (n - 1) q = colOf n q :=
        Fin.ext (by show (n - 1) / 4 % 4 * 1024 + q.val = n / 4 % 4 * 1024 + q.val; omega)
      have es : (n - 1) % 4 + 1 = n % 4 := by omega
      rw [er, eo, es] at ih'
      have hstep : (outsAt0 m c n hn).2
          = k0_pay2 (F := Ideal) (outsAt0 m c (n - 1) hprev).2 (iblk m c 0 ⟨n, hn⟩) (iblk m c 1 ⟨n, hn⟩) := by
        by_cases h1 : n % 4 = 3
        · exact scratch_at_last m c ⟨n, hn⟩ h0 h1
        · exact scratch_at_middle m c ⟨n, hn⟩ h0 h1
      refine (congrFun hstep (ix2 p q)).trans ?_
      refine (step_apply m c n hn p q _).trans ?_
      rw [ih']
      exact (firstStretches_succ _ _ _ _ _).symm

/-- THE BLOCK WRITTEN OUT at a block's last step: at (p, q) the flat form of the layer at the block's row `p` and
    column `q`. -/
theorem out_block_apply (c : Dev nD) (t : Fin cfg0.N) (h1 : t.val % 4 = 3) (p : Fin 2048) (q : Fin 1024) :
    (outsAt0 m c t.val t.isLt).1 (ix2 p q)
      = rowsLayer (rowsOf m c) (weightsOf m c) (biasOf m c) (ix2 (rowOf t.val t.isLt p) (colOf t.val q)) := by
  have h0 : ¬t.val % 4 = 0 := by omega
  refine (congrFun (out_at_last m c t h0 h1) (ix2 p q)).trans ?_
  refine (Payloads.add_bias_apply _ (iblk m c 2 t) p q).trans ?_
  have hacc : k0_pay2 (F := Ideal) (outsAt0 m c (t.val - 1) (Nat.lt_of_le_of_lt (Nat.sub_le _ _) t.isLt)).2 (iblk m c 0 t) (iblk m c 1 t) (ix2 p q)
      = ∑ k : Fin 4096, rowsOf m c (ix2 (rowOf t.val t.isLt p) k) * weightsOf m c (ix2 (colOf t.val q) k) :=
    ((congrFun (scratch_at_last m c t h0 h1) (ix2 p q)).symm.trans (accumulator_apply m c t.val t.isLt p q)).trans
      (by rw [h1]; exact firstStretches_four _ _ _ _)
  exact congrArg₂ (fun a b : EReal => a + b) hacc (Blocks.bias_block_apply m c t q (colOf t.val q) rfl)

/-- The same for any index of the block and any index of the result with the matching coordinates. -/
theorem out_block_at (c : Dev nD) (t : Fin cfg0.N) (h1 : t.val % 4 = 3) (y : S2048x1024.Idx) (i : S8192x4096.Idx)
    (hr : (i 0).val = t.val / 16 * 2048 + (y 0).val) (ho : (i 1).val = t.val / 4 % 4 * 1024 + (y 1).val) :
    (outsAt0 m c t.val t.isLt).1 y = rowsLayer (rowsOf m c) (weightsOf m c) (biasOf m c) i := by
  obtain ⟨p, q, rfl⟩ : ∃ (p : Fin 2048) (q : Fin 1024), y = ix2 p q := ⟨y 0, y 1, eq_ix2 y⟩
  have ei : i = ix2 (rowOf t.val t.isLt p) (colOf t.val q) := funext fun a => Fin.ext (by
    match a with
    | ⟨0, _⟩ => exact hr
    | ⟨1, _⟩ => exact ho)
  rw [ei]
  exact out_block_apply m c t h1 p q

end Exact

end Cert.KernelIdeal.Accum

end
-- ==== Proof.Final.lean ====
/-
  The result array, and the kernel's run read as a value.

  A block of the result is written back once, at its last step, and the 16 blocks tile the [8192, 4096] result; so
  after the grid the result array holds, entry by entry, the flat form of the layer over the flat rows, the masked
  weights and the bias.  The last line of the program splits the result's leading axis into (4, 2048): entry (b, s, o)
  of what it returns is entry (b · 2048 + s, o) of the result array, which is the layer's entry (b, s, o).
-/
import proofs.«166505_j27479200760108_2_alg».proof.Proof.Accum
import Idealize.ShloMosaic.Lib.StableHlo.Run

set_option maxRecDepth 16384

noncomputable section

open scoped BigOperators

namespace Cert.KernelIdeal.Final

open Cert.KernelIdeal Cert.KernelIdeal.Gen Idealize.ShloMosaic Idealize.ShloMosaic.TcCoe Idealize.SL.Sem
open Idealize.ShloMosaic.ValueIdx Cert.MaskedLinear Cert.KernelIdeal.Accum
open Idealize.ShloMosaic.Pipeline (Dat)

variable (m : (ℓ : Loc nD τ sig) → Buf (Elt Ideal) ℓ) (ρ : Dev nD → PrngReg)

/-- What the grid leaves in the result array. -/
abbrev flat (c : Dev nD) : S8192x4096.Idx → EReal := rowsLayer (rowsOf m c) (weightsOf m c) (biasOf m c)

/-- What a block's last step writes back is that block of the flat form of the layer. -/
theorem flushed_eq (c : Dev nD) (t : Fin cfg0.N) (hf : (cfg0.win 3).flush t = true) :
    (dats m 0 c).flushed 3 t = ((cfg0.win 3).blk t).view.read (Elt Ideal) (flat m c) := by
  have h1 : t.val % 4 = 3 := (flush0_3 t).mp hf
  obtain ⟨-, -, -, -, -, e5, e6⟩ := Blocks.block_positions t
  show (cfg0.win 3).cut (grid0.coords t) ((dats m 0 c).after 3 t) = _
  rw [after0_3]
  funext y
  show (outsAt0 m c t.val t.isLt).1 y = flat m c (((cfg0.win 3).blk t).view.emb y)
  refine out_block_at m c t h1 y _ ?_ ?_
  · show win0_3.index t (0 : Fin 2) * 2048 + 1 * (y 0).val = t.val / 16 * 2048 + (y 0).val
    omega
  · show win0_3.index t (1 : Fin 2) * 1024 + 1 * (y 1).val = t.val / 4 % 4 * 1024 + (y 1).val
    omega

/-- An index of the result is in step `t`'s block iff each coordinate is in the block's range. -/
theorem mem_block (t : Fin cfg0.N) (i : S8192x4096.Idx) :
    i ∈ ((cfg0.win 3).blk t).view.set ↔ ∀ a : Fin 2, win0_3.index t a * S2048x1024.size a ≤ (i a).val
      ∧ (i a).val < win0_3.index t a * S2048x1024.size a + S2048x1024.size a := by
  show i ∈ ((View.whole main_v5).slice (win0_3.rect t)).set ↔ _
  rw [View.set_slice_whole, Rect.mem_set_unit]
  exact Iff.rfl

/-- Every index of the result lies in the block of some block's last step. -/
theorem covered (i : S8192x4096.Idx) :
    ∃ t : Fin cfg0.N, (cfg0.win 3).flush t = true ∧ i ∈ ((cfg0.win 3).blk t).view.set := by
  have h0 : (i 0).val < 8192 := idx2_lt0 i
  have h1 : (i 1).val < 4096 := idx2_lt1 i
  obtain ⟨n, hn⟩ : ∃ n, n = (i 0).val / 2048 * 16 + (i 1).val / 1024 * 4 + 3 := ⟨_, rfl⟩
  have hlt : n < cfg0.N := by rw [grid_points]; omega
  refine ⟨⟨n, hlt⟩, (flush0_3 _).mpr (by show n % 4 = 3; omega), ?_⟩
  rw [mem_block]
  obtain ⟨-, -, -, -, -, e5, e6⟩ := Blocks.block_positions ⟨n, hlt⟩
  intro a
  match a with
  | ⟨0, _⟩ =>
    show win0_3.index ⟨n, hlt⟩ (0 : Fin 2) * 2048 ≤ (i 0).val ∧ (i 0).val < win0_3.index ⟨n, hlt⟩ (0 : Fin 2) * 2048 + 2048
    rw [e5]
    show n / 16 * 2048 ≤ (i 0).val ∧ (i 0).val < n / 16 * 2048 + 2048
    omega
  | ⟨1, _⟩ =>
    show win0_3.index ⟨n, hlt⟩ (1 : Fin 2) * 1024 ≤ (i 1).val ∧ (i 1).val < win0_3.index ⟨n, hlt⟩ (1 : Fin 2) * 1024 + 1024
    rw [e6]
    show n / 4 % 4 * 1024 ≤ (i 1).val ∧ (i 1).val < n / 4 % 4 * 1024 + 1024
    omega

/-- THE RESULT ARRAY after the grid. -/
theorem result_array (c : Dev nD) : (dats m 0 c).arrAt 3 cfg0.N = flat m c :=
  (dats m 0 c).arrAt_eq_of_cover 3 (flat m c) (flushed_eq m c) covered

/-- What the program returns: the result array with its leading axis split. -/
theorem returned_eq (c : Dev nD) :
    @Eq (S4x2048x4096.Idx → EReal) (Pipeline.afterTail₀ cfgs (dats m) 0 (V0 m) [hostOps1] c main_v6)
      (shapeCast S4x2048x4096 (flat m c) shapeCasts_S8192x4096_S4x2048x4096) := by
  unfold Pipeline.afterTail₀
  show StableHlo.after hostOps1 _ (Proc.devRef .tc main_v6) = _
  after_results
  have hw : Pipeline.withArrays (cfgs 0).spec c (V0 m c) (fun w => (dats m 0 c).arrAt w (cfgs 0).N) (Proc.tc.devRef main_v5)
      = flat m c :=
    (Pipeline.withArrays_arr spec0 launch0.win.arr_inj c _ _ 3).trans (result_array m c)
  rw [hw]
  rfl

/-- What the program returns is the layer of its four arguments. -/
theorem returned_is_layer (c : Dev nD) :
    @Eq (S4x2048x4096.Idx → EReal) (Pipeline.afterTail₀ cfgs (dats m) 0 (V0 m) [hostOps1] c main_v6)
      (layer (m ((c.tc : Thread nD τ).loc main_arg0)) (m ((c.tc : Thread nD τ).loc main_arg1))
        (m ((c.tc : Thread nD τ).loc main_arg2)) (m ((c.tc : Thread nD τ).loc main_arg3))) := by
  refine (returned_eq m c).trans (funext fun i => ?_)
  obtain ⟨b, s, o, rfl⟩ : ∃ (b : Fin 4) (s : Fin 2048) (o : Fin 4096), i = ix3 b s o := ⟨i 0, i 1, i 2, eq_ix3 i⟩
  have hs := s.isLt
  have hb := b.isLt
  refine (shapeCast_apply (flat m c) shapeCasts_S8192x4096_S4x2048x4096 (ix3 b s o)
    (ix2 (⟨b.val * 2048 + s.val, by omega⟩ : Fin 8192) o) ?_).trans ?_
  · show (S8192x4096.rowMajor _).val = (S4x2048x4096.rowMajor _).val
    rw [Shape.rowMajor_val_two, Shape.rowMajor_val_three]
    rfl
  · show rowsLayer (rowsOf m c) (weightsOf m c) (biasOf m c) (ix2 (⟨b.val * 2048 + s.val, _⟩ : Fin 8192) o) = _
    rw [show rowsOf m c = flatRows (m ((c.tc : Thread nD τ).loc main_arg0)) from Blocks.rows_array m c,
      show weightsOf m c = maskedWeights (m ((c.tc : Thread nD τ).loc main_arg1)) (m ((c.tc : Thread nD τ).loc main_arg3))
        from Blocks.weights_array m c,
      show biasOf m c = m ((c.tc : Thread nD τ).loc main_arg2) from V_main_arg2 m c]
    exact (layer_eq_rowsLayer _ _ _ _ b s o _ rfl).symm

/-- THE KERNEL'S RUN, read: every weakly fair execution ends with the returned array at the layer of the arguments and
    the arguments unchanged. -/
theorem run : θ_run defs (onTc (τ := τ) (main (F := Ideal))) ⟨m, fun _ => 0, ρ⟩ fun r => ∀ c : Dev nD,
      r.2.mem ((c.tc : Thread nD τ).loc main_v6)
        = layer (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨((h c).2 main_v6 (Pipeline.mem_restRefs_of main_v6 (by decide) (by decide))).trans (returned_is_layer m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c)⟩)
    (run_main m ρ)

end Cert.KernelIdeal.Final

end
-- ==== Proof.lean ====
/-
  A masked linear layer computed two ways, equal on the extended reals.

  Both programs take a batch of rows x [4, 2048, 4096], weights w [4096, 4096], a bias [4096] and a 0/1 mask of the
  weights' shape, and return, at (b, s, o),  Σ_k x (b, s, k) · (w (o, k) · mask (o, k)) + bias o.  The reference takes
  the contraction at once.  The kernel first forms the masked weights and lays the rows out flat, then walks the 4 × 4
  blocks of the flat result; for each block it adds the shares of four stretches of 1024 positions of k onto a zero
  accumulator, adds the bias after the last, and finally splits the leading axis back.  Addition of extended reals is
  commutative and associative and 0 + y = y, so the four shares make the whole sum: no finiteness of the inputs is
  used, and the precondition is never opened.  Changes of float format are the identity on extended reals.

  Each program runs to the end from every memory, without a fault and leaving its arguments as they were: for the
  kernel at both readings this is the generated frame; for the reference it is its generated run.  The idealization
  rewrote nothing, so there is nothing to preserve.
-/
import proofs.«166505_j27479200760108_2_alg».proof.Defs
import proofs.«166505_j27479200760108_2_alg».proof.Proof.Gen.Kernel
import proofs.«166505_j27479200760108_2_alg».proof.Proof.Gen.Kernel.Skeleton
import proofs.«166505_j27479200760108_2_alg».proof.Proof.Gen.Kernel.Launch
import proofs.«166505_j27479200760108_2_alg».proof.Proof.Gen.Kernel.Points
import proofs.«166505_j27479200760108_2_alg».proof.Proof.Gen.Kernel.Frame
import proofs.«166505_j27479200760108_2_alg».proof.Proof.Gen.KernelIdeal
import proofs.«166505_j27479200760108_2_alg».proof.Proof.Gen.KernelIdeal.Skeleton
import proofs.«166505_j27479200760108_2_alg».proof.Proof.Gen.KernelIdeal.Launch
import proofs.«166505_j27479200760108_2_alg».proof.Proof.Gen.KernelIdeal.Points
import proofs.«166505_j27479200760108_2_alg».proof.Proof.Gen.KernelIdeal.Frame
import proofs.«166505_j27479200760108_2_alg».proof.Proof.Gen.ReferenceIdeal
import proofs.«166505_j27479200760108_2_alg».proof.Proof.Gen.Pre_finite_inputs
import proofs.«166505_j27479200760108_2_alg».proof.Proof.Gen.ReferenceIdeal.Run
import proofs.«166505_j27479200760108_2_alg».proof.Proof.Gen.ReferenceIdeal.Read
import proofs.«166505_j27479200760108_2_alg».proof.Proof.Reference
import proofs.«166505_j27479200760108_2_alg».proof.Proof.Final
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- On the extended reals the kernel returns the layer of its arguments, and so does the reference, of arguments that
    agree. -/
theorem algebraic : Cert.algebraic_KernelIdeal_ReferenceIdeal := by
  intro m ρ m' ρ' _ hagree
  refine ⟨fun c => Cert.MaskedLinear.layer
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Final.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v5_eq, Cert.ReferenceIdeal.RefValue.reference_is_layer,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
